-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x65536x256 : Shape := ⟨3, ![1, 65536, 256]⟩
abbrev S1x256 : Shape := ⟨2, ![1, 256]⟩
abbrev S1x1x256 : Shape := ⟨3, ![1, 1, 256]⟩
abbrev S256x1024 : Shape := ⟨2, ![256, 1024]⟩
abbrev S1024 : Shape := ⟨1, ![1024]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S1x65536x256 : S_.BroadcastsInDim S1x65536x256 (![] : Fin 0 → Fin S1x65536x256.rank)
  reducesTo_S1x65536x256_S_d0_1_2 : S1x65536x256.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S1x1x256 : S_.BroadcastsInDim S1x1x256 (![] : Fin 0 → Fin S1x1x256.rank)
  reducesTo_S1x1x256_S_d0_1_2 : S1x1x256.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S256x1 .f32) (main_arg12 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x1 .f32 := Host.absf main_arg11
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256x256 .f32) (main_arg10 : FVec F S256 .f32) (main_arg11 : FVec F S256x1 .f32) (main_arg12 : FVec F S1 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256x1024 .f32) (main_arg5 : FVec F S256x1024 .f32) (main_arg6 : FVec F S1024 .f32) (main_arg7 : FVec F S256x256 .f32) (main_arg8 : FVec F S256 .f32) (main_arg9 : FVec F S256x256 .f32) (main_arg10 : FVec F S256 .f32) (main_arg11 : FVec F S256x1 .f32) (main_arg12 : FVec F S1 .f32) (main_v13 : IVec S_ 1) (main_v16 : IVec S1x1x256 1) : IVec S_ 1 :=
  let main_c_5 : IVec S_ 1 := constantI S_ 1 1#1
  let main_v17 : IVec S_ 1 := (fun x v => Host.reduce IntOp.andi x v reducesTo_S1x1x256_S_d0_1_2 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S1x65536x256 .f32) (main_arg1 : FVec F S1x256 .f32) (main_arg2 : FVec F S1x256 .f32) (main_arg3 : FVec F S1x1x256 .f32) (main_arg4 : FVec F S256x1024 .f32) (main_arg5 : FVec F S256x1024 .f32) (main_arg6 : FVec F S1024 .f32) (main_arg7 : FVec F S256x256 .f32) (main_arg8 : FVec F S256 .f32) (main_arg9 : FVec F S256x256 .f32) (main_arg10 : FVec F S256 .f32) (main_arg11 : FVec F S256x1 .f32) (main_arg12 : FVec F S1 .f32) : IVec S_ 1 :=
  let main_v0 : FVec F S1x65536x256 .f32 := Host.absf main_arg0
  let main_cst : FVec F S_ .f32 := constant S_ .f32 0x7F800000#32
  let main_v1 : FVec F S1x65536x256 .f32 := broadcastInDim S1x65536x256 ![] bcast_S_S1x65536x256 main_cst
  let main_v2 : IVec S1x65536x256 1 := cmpf .olt main_v0 main_v1
  let main_c : IVec S_ 1 := constantI S_ 1 1#1
  let main_v3 : IVec S_ 1 := (fun x v => Host.reduce IntOp.andi x v reducesTo_S1x65536x256_S_d0_1_2 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x1x256 .f32 := Host.absf main_arg3
  let main_cst_4 : FVec F S_ .f32 := constant S_ .f32 0x7F800000#32
  let main_v15 : FVec F S1x1x256 .f32 := broadcastInDim S1x1x256 ![] bcast_S_S1x1x256 main_cst_4
  let main_v16 : IVec S1x1x256 1 := cmpf .olt main_v14 main_v15
  fn_part1 (F := F) main_arg4 main_arg5 main_arg6 main_arg7 main_arg8 main_arg9 main_arg10 main_arg11 main_arg12 main_v13 main_v16
-- ==== Kernel.lean ====
abbrev S1x65536x256 : Shape := ⟨3, ![1, 65536, 256]⟩
abbrev S1x256 : Shape := ⟨2, ![1, 256]⟩
abbrev S1x1x256 : Shape := ⟨3, ![1, 1, 256]⟩
abbrev S256x1024 : Shape := ⟨2, ![256, 1024]⟩
abbrev S1024 : Shape := ⟨1, ![1024]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1024 : Shape := ⟨2, ![1, 1024]⟩
abbrev S_ : Shape := ⟨0, ![]⟩
abbrev S65536x256 : Shape := ⟨2, ![65536, 256]⟩
abbrev S1x1 : Shape := ⟨2, ![1, 1]⟩
abbrev S65536x1 : Shape := ⟨2, ![65536, 1]⟩
abbrev S2048x256 : Shape := ⟨2, ![2048, 256]⟩
abbrev S2048x1 : Shape := ⟨2, ![2048, 1]⟩
abbrev S512x128 : Shape := ⟨2, ![512, 128]⟩
abbrev S512 : Shape := ⟨1, ![512]⟩
abbrev S512x1 : Shape := ⟨2, ![512, 1]⟩
abbrev S65536 : Shape := ⟨1, ![65536]⟩

abbrev nBuf : Space → Nat
  | .hbm => 63
  | .vmem => 11
  | .smem => 0
  | _ => 0

abbrev bufTy : (tb : Table) → Fin (tcTables nBuf tb) → BufTy
  | .hbm, ⟨0, _⟩ => ⟨S1x65536x256, .f32⟩
  | .hbm, ⟨1, _⟩ => ⟨S1x256, .f32⟩
  | .hbm, ⟨2, _⟩ => ⟨S1x256, .f32⟩
  | .hbm, ⟨3, _⟩ => ⟨S1x1x256, .f32⟩
  | .hbm, ⟨4, _⟩ => ⟨S256x1024, .f32⟩
  | .hbm, ⟨5, _⟩ => ⟨S256x1024, .f32⟩
  | .hbm, ⟨6, _⟩ => ⟨S1024, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S1x256, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S65536x256, .f32⟩
  | .hbm, ⟨57, _⟩ => ⟨S1x256, .f32⟩
  | .hbm, ⟨58, _⟩ => ⟨S1x1, .f32⟩
  | .hbm, ⟨59, _⟩ => ⟨S65536x1, .f32⟩
  | .hbm, ⟨60, _⟩ => ⟨S512x128, .f32⟩
  | .hbm, ⟨61, _⟩ => ⟨S512x128, .f32⟩
  | .hbm, ⟨62, _⟩ => ⟨S65536, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S256x1, .f32⟩
  | .local _ .vmem, ⟨6, _⟩ => ⟨S1x1, .f32⟩
  | .local _ .vmem, ⟨7, _⟩ => ⟨S2048x1, .f32⟩
  | .local _ .vmem, ⟨8, _⟩ => ⟨S2048x1, .f32⟩
  | .local _ .vmem, ⟨9, _⟩ => ⟨S512x128, .f32⟩
  | .local _ .vmem, ⟨10, _⟩ => ⟨S512x128, .f32⟩
  | _, _ => ⟨S1x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg1_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  shapeCasts_S1x1x256_S1x256 : S1x1x256.ShapeCasts S1x256
  bcast_S1024_S1x1024_1 : S1024.BroadcastsInDim S1x1024 (![1] : Fin 1 → Fin S1x1024.rank)
  slices_S1x1024_S1x256_0_0 : S1x1024.Slices ![0, 0] S1x256
  slices_S1x1024_S1x256_0_256 : S1x1024.Slices ![0, 256] S1x256
  slices_S1x1024_S1x256_0_512 : S1x1024.Slices ![0, 512] S1x256
  slices_S1x1024_S1x256_0_768 : S1x1024.Slices ![0, 768] S1x256
  bcast_S_S1x256 : S_.BroadcastsInDim S1x256 (![] : Fin 0 → Fin S1x256.rank)
  bcast_S256_S1x256_1 : S256.BroadcastsInDim S1x256 (![1] : Fin 1 → Fin S1x256.rank)
  shapeCasts_S1x65536x256_S65536x256 : S1x65536x256.ShapeCasts S65536x256
  shapeCasts_S256_S1x256 : S256.ShapeCasts S1x256
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S65536x1_S512x128 : S65536x1.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  reduces_S512x1_S1 : S512x1.Reduces [0] S1
  broadcasts_S1x1_S512x128 : S1x1.Broadcasts S512x128
  shapeCasts_S512x128_S65536 : S512x128.ShapeCasts S65536
  dot_S1x256_S256x1024_S1x1024_1_0_0_1_n_n_wf : DotDims.WF S1x256 S256x1024 S1x1024 [1] [0] [0] [1] [] []
  dot_S1x256_S256x256_S1x256_1_0_0_1_n_n_wf : DotDims.WF S1x256 S256x256 S1x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S65536x1.size a
  hwx0_6 : ∀ i : grid0.Coords, EltTy.bits .f32 = 32 ∨ (Rect.block (s := S65536x1) S2048x1.size (cc0_transform_6 i) (hinb0_6 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)

variable [Facts₀]

def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_v37) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v42) S512x128.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1x65536x256 : Shape := ⟨3, ![1, 65536, 256]⟩
abbrev S1x256 : Shape := ⟨2, ![1, 256]⟩
abbrev S1x1x256 : Shape := ⟨3, ![1, 1, 256]⟩
abbrev S256x1024 : Shape := ⟨2, ![256, 1024]⟩
abbrev S1024 : Shape := ⟨1, ![1024]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x1024 : Shape := ⟨2, ![1, 1024]⟩
abbrev S_ : Shape := ⟨0, ![]⟩
abbrev S65536x256 : Shape := ⟨2, ![65536, 256]⟩
abbrev S65536x1 : Shape := ⟨2, ![65536, 1]⟩
abbrev S1x1 : Shape := ⟨2, ![1, 1]⟩
abbrev S65536 : Shape := ⟨1, ![65536]⟩

abbrev nBuf : Space → Nat
  | .hbm => 82
  | .vmem => 0
  | .smem => 0
  | _ => 0

abbrev bufTy : (tb : Table) → Fin (tcTables nBuf tb) → BufTy
  | .hbm, ⟨0, _⟩ => ⟨S1x65536x256, .f32⟩
  | .hbm, ⟨1, _⟩ => ⟨S1x256, .f32⟩
  | .hbm, ⟨2, _⟩ => ⟨S1x256, .f32⟩
  | .hbm, ⟨3, _⟩ => ⟨S1x1x256, .f32⟩
  | .hbm, ⟨4, _⟩ => ⟨S256x1024, .f32⟩
  | .hbm, ⟨5, _⟩ => ⟨S256x1024, .f32⟩
  | .hbm, ⟨6, _⟩ => ⟨S1024, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S1x256, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S_, .f32⟩
  | .hbm, ⟨26, _⟩ => ⟨S1x256, .f32⟩
  | .hbm, ⟨27, _⟩ => ⟨S1x256, .f32⟩
  | .hbm, ⟨28, _⟩ => ⟨S_, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S_, .f32⟩
  | .hbm, ⟨35, _⟩ => ⟨S1x256, .f32⟩
  | .hbm, ⟨36, _⟩ => ⟨S1x256, .f32⟩
  | .hbm, ⟨37, _⟩ => ⟨S_, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S_, .f32⟩
  | .hbm, ⟨46, _⟩ => ⟨S1x256, .f32⟩
  | .hbm, ⟨47, _⟩ => ⟨S1x256, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S65536x256, .f32⟩
  | .hbm, ⟨57, _⟩ => ⟨S65536x256, .f32⟩
  | .hbm, ⟨58, _⟩ => ⟨S1x256, .f32⟩
  | .hbm, ⟨59, _⟩ => ⟨S65536x256, .f32⟩
  | .hbm, ⟨60, _⟩ => ⟨S65536x256, .f32⟩
  | .hbm, ⟨61, _⟩ => ⟨S65536x256, .f32⟩
  | .hbm, ⟨62, _⟩ => ⟨S65536x256, .f32⟩
  | .hbm, ⟨63, _⟩ => ⟨S65536x256, .f32⟩
  | .hbm, ⟨64, _⟩ => ⟨S65536x1, .f32⟩
  | .hbm, ⟨65, _⟩ => ⟨S1x1, .f32⟩
  | .hbm, ⟨66, _⟩ => ⟨S65536x1, .f32⟩
  | .hbm, ⟨67, _⟩ => ⟨S65536x1, .f32⟩
  | .hbm, ⟨68, _⟩ => ⟨S65536, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1, .f32⟩
  | .hbm, ⟨74, _⟩ => ⟨S65536, .f32⟩
  | .hbm, ⟨75, _⟩ => ⟨S65536, .f32⟩
  | .hbm, ⟨76, _⟩ => ⟨S65536, .f32⟩
  | .hbm, ⟨77, _⟩ => ⟨S_, .f32⟩
  | .hbm, ⟨78, _⟩ => ⟨S_, .f32⟩
  | .hbm, ⟨79, _⟩ => ⟨S1, .f32⟩
  | .hbm, ⟨80, _⟩ => ⟨S65536, .f32⟩
  | .hbm, ⟨81, _⟩ => ⟨S65536, .f32⟩
  | _, _ => ⟨S1x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  shapeCasts_S1x1x256_S1x256 : S1x1x256.ShapeCasts S1x256
  bcast_S1024_S1x1024_1 : S1024.BroadcastsInDim S1x1024 (![1] : Fin 1 → Fin S1x1024.rank)
  slices_S1x1024_S1x256_0_0 : S1x1024.Slices ![0, 0] S1x256
  slices_S1x1024_S1x256_0_256 : S1x1024.Slices ![0, 256] S1x256
  slices_S1x1024_S1x256_0_512 : S1x1024.Slices ![0, 512] S1x256
  slices_S1x1024_S1x256_0_768 : S1x1024.Slices ![0, 768] S1x256
  bcast_S_S1x256 : S_.BroadcastsInDim S1x256 (![] : Fin 0 → Fin S1x256.rank)
  bcast_S256_S1x256_1 : S256.BroadcastsInDim S1x256 (![1] : Fin 1 → Fin S1x256.rank)
  shapeCasts_S1x65536x256_S65536x256 : S1x65536x256.ShapeCasts S65536x256
  bcast_S1x256_S65536x256_0_1 : S1x256.BroadcastsInDim S65536x256 (![0, 1] : Fin 2 → Fin S65536x256.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  shapeCasts_S65536x1_S65536 : S65536x1.ShapeCasts S65536
  reducesTo_S65536_S_d0 : S65536.ReducesTo [0] S_
  h_S_ : 0 < S_.numel
  bcast_S_S1 : S_.BroadcastsInDim S1 (![] : Fin 0 → Fin S1.rank)
  bcast_S1_S65536_0 : S1.BroadcastsInDim S65536 (![0] : Fin 1 → Fin S65536.rank)
  dot_S1x256_S256x1024_S1x1024_1_0_0_1_n_n_wf : DotDims.WF S1x256 S256x1024 S1x1024 [1] [0] [0] [1] [] []
  dot_S1x256_S256x256_S1x256_1_0_0_1_n_n_wf : DotDims.WF S1x256 S256x256 S1x256 [1] [0] [0] [1] [] []
  dot_S65536x256_S256x256_S65536x256_1_0_0_1_n_n_wf : DotDims.WF S65536x256 S256x256 S65536x256 [1] [0] [0] [1] [] []
  dot_S65536x256_S256x1_S65536x1_1_0_0_1_n_n_wf : DotDims.WF S65536x256 S256x1 S65536x1 [1] [0] [0] [1] [] []

variable [Facts₀]

def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.KRun.lean ====
/-
  The idealized kernel program's run, with its final memory named.

  The program is five segments: the host operations that compute the decoder projection and re-lay the
  arguments, the scoring kernel over 32 row tiles, one host reshape of the score column to 512 × 128, the
  softmax kernel on that one block, and one host reshape back to a flat vector.  The buffer contents at the
  five boundaries are a fold from the launch memory; this module states that every weakly fair execution
  terminates with EVERY unscoped buffer holding the last boundary's contents, so that the result buffer can
  be read off the fold (the arguments' part of this is the frame).
-/
import proofs.«135827_j28578712388353_2_alg».proof.Proof.Gen.KernelIdeal.Frame

set_option maxRecDepth 16384

noncomputable section

namespace Cert.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in every final state each
    unscoped buffer of each core holds the contents of the last boundary of the fold. -/
theorem run_held : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- In particular the result buffer ends at the last boundary's contents there, and the arguments as launched. -/
theorem run_result : θ_run defs (onTc (τ := τ) (main (F := F))) ⟨m, fun _ => 0, ρ⟩ (fun r => ∀ c : Dev nD,
      r.2.mem ((c.tc : Thread nD τ).loc main_v43) = W5 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨h c _ (mem_uc main_v43 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)
    (run_held m ρ)

end Cert.KernelSide

end
-- ==== Proof.AttnSpec.lean ====
/-
  The mathematics both programs compute, stated once over plain finite index types, on the extended reals.

  Additive attention: row `r` of the encoder output is projected (`x · W`), shifted by the encoder bias and by
  the decoder projection, squashed by `tanh`, and contracted with the weight column `v_w`; adding `v_b` gives
  the row's score.  The 65536 scores are then normalised by a softmax over ALL of them: the maximum is taken,
  every score is shifted by it and exponentiated, and each exponential is divided by their sum.

  The softmax is written twice: over the flat vector of scores, and over the same scores laid out as 512 rows
  of 128 lanes with the maximum and the sum each taken along the lanes first and along the rows second.
  `flatPos a b = 128·a + b` is the position of lane `b` of row `a` in the flat vector.
-/
import Idealize.ShloMosaic.PureOps.Ideal

noncomputable section

namespace Cert.Attention

open Idealize.ShloMosaic

/-- The value from which every maximum starts: the f32 word of −∞, kept as the word both programs print. -/
def negInf : EReal := Ideal.ofBits .f32 0xFF800000#32

/-- One row's score: `(∑ₖ tanh((∑ⱼ xⱼ·Wⱼₖ + beₖ) + dpₖ) · vwₖ) + vb`. -/
def rowScore (x : Fin 256 → EReal) (w : Fin 256 → Fin 256 → EReal) (be dp vw : Fin 256 → EReal) (vb : EReal) : EReal :=
  (∑ k : Fin 256, Ideal.tanh (((∑ j : Fin 256, x j * w j k) + be k) + dp k) * vw k) + vb

/-- The maximum of all scores, folded from −∞. -/
def flatMax (u : Fin 65536 → EReal) : EReal := (Finset.univ : Finset (Fin 65536)).fold max negInf u

/-- The softmax of the flat score vector at position `r`. -/
def softmaxFlat (u : Fin 65536 → EReal) (r : Fin 65536) : EReal :=
  Ideal.div (Ideal.exp (u r - flatMax u)) (∑ q : Fin 65536, Ideal.exp (u q - flatMax u))

/-- The maximum of a 512 × 128 layout: along the lanes of each row first, then over the rows, each fold from −∞. -/
def tiledMax (v : Fin 512 → Fin 128 → EReal) : EReal :=
  (Finset.univ : Finset (Fin 512)).fold max negInf fun a => (Finset.univ : Finset (Fin 128)).fold max negInf (v a)

/-- The softmax of a 512 × 128 layout at lane `b` of row `a`, the sum taken lanes first, rows second. -/
def softmaxTiled (v : Fin 512 → Fin 128 → EReal) (a : Fin 512) (b : Fin 128) : EReal :=
  Ideal.div (Ideal.exp (v a b - tiledMax v)) (∑ p : Fin 512, ∑ q : Fin 128, Ideal.exp (v p q - tiledMax v))

/-- Lane `b` of row `a` sits at position `128·a + b` of the flat vector. -/
def flatPos (a : Fin 512) (b : Fin 128) : Fin 65536 :=
  ⟨a.val * 128 + b.val, by have := a.isLt; have := b.isLt; omega⟩

end Cert.Attention

end
-- ==== Proof.KScore.lean ====
/-
  The first kernel body's stored value, read at an index, at the ideal values.

  The body projects the 2048 × 256 block of encoder rows by a 256 × 256 matrix, adds two 1 × 256 rows (each
  repeated down the 2048 rows), takes the hyperbolic tangent, contracts the result with a 256 × 1 column and
  adds a 1 × 1 value.  At the ideal values the roundings to the narrower format are identities and a matrix
  product into a zero accumulator is the plain sum of products along the contracted axis, so the value stored
  for row `y` is `(∑ₖ tanh((∑ⱼ xⱼ·Wⱼₖ + beₖ) + dpₖ) · vwₖ) + vb`: that row's score.
-/
import proofs.«135827_j28578712388353_2_alg».proof.Proof.Gen.KernelIdeal.Skeleton
import proofs.«135827_j28578712388353_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelSide

open Idealize.ShloMosaic Idealize.SL.Sem
open Cert.KernelIdeal Cert.KernelIdeal.Gen

variable [Cert.KernelIdeal.Facts]

/-- The left operand of the [2048,256]·[256,256] product is read on the output's row. -/
theorem proj_lhs_row (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl

/-- The left operand of the [2048,256]·[256,256] product is read, along its second axis, at the contraction coordinate. -/
theorem proj_lhs_contr (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q

/-- The right operand of the [2048,256]·[256,256] product is read, along its first axis, at the contraction coordinate. -/
theorem proj_rhs_contr (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q

/-- The right operand of the [2048,256]·[256,256] product is read on the output's column. -/
theorem proj_rhs_col (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- The [2048,256]·[256,256] product into a zero accumulator, at row `y` and column `c`, is the sum of the
    256 products along the contracted axis. -/
theorem proj_at (a : FVec Ideal S2048x256 .bf16) (b : FVec Ideal S256x256 .bf16) (y : Fin 2048) (c : Fin 256) :
    matmul dot_S2048x256_S256x256_S2048x256_1_0_0_1_n_n none a b (constant (F := Ideal) S2048x256 .f32 0x00000000#32) (ValueIdx.ix2 y c)
      = ∑ j : Fin 256, a (ValueIdx.ix2 y j) * b (ValueIdx.ix2 j c) := by
  refine (Ideal.matmul_constant_zero_apply dot_S2048x256_S256x256_S2048x256_1_0_0_1_n_n none a b (ValueIdx.ix2 y c)).trans ?_
  rw [← Equiv.sum_comp (ValueIdx.contrEquiv1 dot_S2048x256_S256x256_S2048x256_1_0_0_1_n_n 256 rfl rfl).symm]
  refine Finset.sum_congr rfl fun j _ => ?_
  have hj := ValueIdx.contrEquiv1_symm_val dot_S2048x256_S256x256_S2048x256_1_0_0_1_n_n 256 rfl rfl j
  have el : dot_S2048x256_S256x256_S2048x256_1_0_0_1_n_n.lhsIdx (ValueIdx.ix2 y c) ((ValueIdx.contrEquiv1 dot_S2048x256_S256x256_S2048x256_1_0_0_1_n_n 256 rfl rfl).symm j) = ValueIdx.ix2 y j :=
    funext fun ax => Fin.ext (by
      match ax with
      | ⟨0, _⟩ => exact proj_lhs_row _ _
      | ⟨1, _⟩ => exact (proj_lhs_contr _ _).trans hj)
  have er : dot_S2048x256_S256x256_S2048x256_1_0_0_1_n_n.rhsIdx (ValueIdx.ix2 y c) ((ValueIdx.contrEquiv1 dot_S2048x256_S256x256_S2048x256_1_0_0_1_n_n 256 rfl rfl).symm j) = ValueIdx.ix2 j c :=
    funext fun ax => Fin.ext (by
      match ax with
      | ⟨0, _⟩ => exact (proj_rhs_contr _ _).trans hj
      | ⟨1, _⟩ => exact proj_rhs_col _ _)
  rw [el, er]

/-- The left operand of the [2048,256]·[256,1] product is read on the output's row. -/
theorem contract_lhs_row (i : S2048x1.Idx) (q : dot_S2048x256_S256x1_S2048x1_1_0_0_1_n_n.contr.Idx) :
    (dot_S2048x256_S256x1_S2048x1_1_0_0_1_n_n.lhsIdx i q 0).val = (i 0).val := by
  unfold DotDims.lhsIdx
  rw [dif_neg (show ¬(0 : Fin S2048x256.rank) ∈ dot_S2048x256_S256x1_S2048x1_1_0_0_1_n_n.lhsBatch by decide), dif_pos (show (0 : Fin S2048x256.rank) ∈ dot_S2048x256_S256x1_S2048x1_1_0_0_1_n_n.lhsNonContracting by decide)]
  rfl

/-- The left operand of the [2048,256]·[256,1] product is read, along its second axis, at the contraction coordinate. -/
theorem contract_lhs_contr (i : S2048x1.Idx) (q : dot_S2048x256_S256x1_S2048x1_1_0_0_1_n_n.contr.Idx) :
    (dot_S2048x256_S256x1_S2048x1_1_0_0_1_n_n.lhsIdx i q 1).val = (q ⟨0, by decide⟩).val :=
  dot_S2048x256_S256x1_S2048x1_1_0_0_1_n_n.lhsIdx_val_of_single rfl i q

/-- The right operand of the [2048,256]·[256,1] product is read, along its first axis, at the contraction coordinate. -/
theorem contract_rhs_contr (i : S2048x1.Idx) (q : dot_S2048x256_S256x1_S2048x1_1_0_0_1_n_n.contr.Idx) :
    (dot_S2048x256_S256x1_S2048x1_1_0_0_1_n_n.rhsIdx i q 0).val = (q ⟨0, by decide⟩).val :=
  dot_S2048x256_S256x1_S2048x1_1_0_0_1_n_n.rhsIdx_val_of_single rfl i q

/-- The right operand of the [2048,256]·[256,1] product is read on the output's column. -/
theorem contract_rhs_col (i : S2048x1.Idx) (q : dot_S2048x256_S256x1_S2048x1_1_0_0_1_n_n.contr.Idx) :
    (dot_S2048x256_S256x1_S2048x1_1_0_0_1_n_n.rhsIdx i q 1).val = (i 1).val := by
  unfold DotDims.rhsIdx
  rw [dif_neg (show ¬(1 : Fin S256x1.rank) ∈ dot_S2048x256_S256x1_S2048x1_1_0_0_1_n_n.rhsBatch by decide), dif_pos (show (1 : Fin S256x1.rank) ∈ dot_S2048x256_S256x1_S2048x1_1_0_0_1_n_n.rhsNonContracting by decide)]
  rfl

/-- The [2048,256]·[256,1] product into a zero accumulator, at row `y`, is the sum of the 256 products along
    the contracted axis. -/
theorem contract_at (a : FVec Ideal S2048x256 .bf16) (b : FVec Ideal S256x1 .bf16) (y : Fin 2048) (c : Fin 1) :
    matmul dot_S2048x256_S256x1_S2048x1_1_0_0_1_n_n none a b (constant (F := Ideal) S2048x1 .f32 0x00000000#32) (ValueIdx.ix2 y c)
      = ∑ j : Fin 256, a (ValueIdx.ix2 y j) * b (ValueIdx.ix2 j c) := by
  refine (Ideal.matmul_constant_zero_apply dot_S2048x256_S256x1_S2048x1_1_0_0_1_n_n none a b (ValueIdx.ix2 y c)).trans ?_
  rw [← Equiv.sum_comp (ValueIdx.contrEquiv1 dot_S2048x256_S256x1_S2048x1_1_0_0_1_n_n 256 rfl rfl).symm]
  refine Finset.sum_congr rfl fun j _ => ?_
  have hj := ValueIdx.contrEquiv1_symm_val dot_S2048x256_S256x1_S2048x1_1_0_0_1_n_n 256 rfl rfl j
  have el : dot_S2048x256_S256x1_S2048x1_1_0_0_1_n_n.lhsIdx (ValueIdx.ix2 y c) ((ValueIdx.contrEquiv1 dot_S2048x256_S256x1_S2048x1_1_0_0_1_n_n 256 rfl rfl).symm j) = ValueIdx.ix2 y j :=
    funext fun ax => Fin.ext (by
      match ax with
      | ⟨0, _⟩ => exact contract_lhs_row _ _
      | ⟨1, _⟩ => exact (contract_lhs_contr _ _).trans hj)
  have er : dot_S2048x256_S256x1_S2048x1_1_0_0_1_n_n.rhsIdx (ValueIdx.ix2 y c) ((ValueIdx.contrEquiv1 dot_S2048x256_S256x1_S2048x1_1_0_0_1_n_n 256 rfl rfl).symm j) = ValueIdx.ix2 j c :=
    funext fun ax => Fin.ext (by
      match ax with
      | ⟨0, _⟩ => exact (contract_rhs_contr _ _).trans hj
      | ⟨1, _⟩ => exact contract_rhs_col _ _)
  rw [el, er]

/-- The hyperbolic tangent of a vector read at an index is the tangent of the entry there. -/
theorem tanh_at {s : Shape} {φ : FTy} (a : FVec Ideal s φ) (i : s.Idx) : tanh a i = Ideal.tanh (a i) := rfl

/-- The projected, shifted and squashed entry at row `y`, column `k`. -/
theorem hidden_at (v0 : Vec Ideal S2048x256 .f32) (v3 : Vec Ideal S256x256 .f32) (v6 v10 : Vec Ideal S1x256 .f32)
    (y : Fin 2048) (k : Fin 256) :
    tanh (addf (addf
        (matmul dot_S2048x256_S256x256_S2048x256_1_0_0_1_n_n none
          (truncf .bf16 (shapeCast S2048x256 v0 shapeCasts_S2048x256_S2048x256) bitsLt_bf16_f32)
          (truncf .bf16 v3 bitsLt_bf16_f32) (constant (F := Ideal) S2048x256 .f32 0x00000000#32))
        (broadcastTo S2048x256 (shapeCast S1x256 v6 shapeCasts_S1x256_S1x256) broadcasts_S1x256_S2048x256))
        (broadcastTo S2048x256 (shapeCast S1x256 v10 shapeCasts_S1x256_S1x256) broadcasts_S1x256_S2048x256))
      (ValueIdx.ix2 y k)
      = Ideal.tanh (((∑ j : Fin 256, v0 (ValueIdx.ix2 y j) * v3 (ValueIdx.ix2 j k)) + v6 (ValueIdx.ix2 (0 : Fin 1) k))
          + v10 (ValueIdx.ix2 (0 : Fin 1) k)) := by
  rw [shapeCast_self v0, shapeCast_self v6, shapeCast_self v10]
  refine (tanh_at _ _).trans (congrArg Ideal.tanh ?_)
  refine (ValueIdx.addf_apply _ _ _).trans ?_
  refine congrArg₂ (· + ·) ?_ (ValueIdx.broadcastTo_1b_ab_apply v10 broadcasts_S1x256_S2048x256 y k)
  refine (ValueIdx.addf_apply _ _ _).trans ?_
  refine congrArg₂ (· + ·) ?_ (ValueIdx.broadcastTo_1b_ab_apply v6 broadcasts_S1x256_S2048x256 y k)
  exact proj_at _ _ y k

/-- The first kernel body's stored value at row `y` is that row's score. -/
theorem score_at (v0 : Vec Ideal S2048x256 .f32) (v3 : Vec Ideal S256x256 .f32) (v6 v10 : Vec Ideal S1x256 .f32) (v16 : Vec Ideal S256x1 .f32) (v19 : Vec Ideal S1x1 .f32) (y : Fin 2048) :
      k0_pay1 (F := Ideal) v0 v3 v6 v10 v16 v19 (ValueIdx.ix2 y (0 : Fin 1))
        = Cert.Attention.rowScore (fun j => v0 (ValueIdx.ix2 y j)) (fun j k => v3 (ValueIdx.ix2 j k)) (fun k => v6 (ValueIdx.ix2 (0 : Fin 1) k)) (fun k => v10 (ValueIdx.ix2 (0 : Fin 1) k)) (fun k => v16 (ValueIdx.ix2 k (0 : Fin 1))) (v19 (ValueIdx.ix2 (0 : Fin 1) (0 : Fin 1))) := by
  unfold k0_pay1 Cert.Attention.rowScore
  rw [shapeCast_self v19]
  refine (ValueIdx.addf_apply _ _ _).trans ?_
  refine congrArg₂ (· + ·) ?_ (ValueIdx.broadcastTo_1b_ab_apply v19 broadcasts_S1x1_S2048x1 y (0 : Fin 1))
  refine (contract_at _ _ y (0 : Fin 1)).trans ?_
  refine Finset.sum_congr rfl fun k _ => ?_
  exact congrArg₂ (· * ·) (hidden_at v0 v3 v6 v10 y k) rfl

end Cert.KernelSide

end
-- ==== Proof.KBlocks0.lean ====
/-
  The scoring kernel's output array, as one function of the arrays the kernel finds.

  The kernel visits 32 grid points; point `t` loads rows `2048·t … 2048·t + 2047` of the encoder matrix and the
  whole of the five small operands, and writes back rows `2048·t …` of a 65536 × 1 column.  Row `y` of what it
  writes is the score of the encoder row `2048·t + y`, so every block is the restriction of ONE column
  `scoreCol`: entry `r` is `rowScore` of encoder row `r`.  The 32 blocks tile the column (row `r` lies in block
  `r / 2048`), hence the array ends holding `scoreCol`.
-/
import proofs.«135827_j28578712388353_2_alg».proof.Proof.Gen.KernelIdeal.Frame
import proofs.«135827_j28578712388353_2_alg».proof.Proof.AttnSpec
import proofs.«135827_j28578712388353_2_alg».proof.Proof.KScore
import Idealize.ShloMosaic.Lib.ValueIdx
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2)

/-- The score depends on its six ingredients entry by entry. -/
theorem rowScore_congr {x x' : Fin 256 → EReal} {w w' : Fin 256 → Fin 256 → EReal} {be be' dp dp' vw vw' : Fin 256 → EReal}
    {vb vb' : EReal} (hx : ∀ j, x j = x' j) (hw : ∀ j k, w j k = w' j k) (hbe : ∀ k, be k = be' k) (hdp : ∀ k, dp k = dp' k)
    (hvw : ∀ k, vw k = vw' k) (hvb : vb = vb') :
    Cert.Attention.rowScore x w be dp vw vb = Cert.Attention.rowScore x' w' be' dp' vw' vb' := by
  obtain rfl : x = x' := funext hx
  obtain rfl : w = w' := funext fun j => funext (hw j)
  obtain rfl : be = be' := funext hbe
  obtain rfl : dp = dp' := funext hdp
  obtain rfl : vw = vw' := funext hvw
  subst hvb
  rfl

/-- The column of all 65536 scores, from the encoder matrix, the projection weights, the two bias rows, the
    weight column and the scalar bias, each as the kernel's windows see them. -/
def scoreCol (E : S65536x256.Idx → EReal) (Wm : S256x256.Idx → EReal) (be dp : S1x256.Idx → EReal)
    (vw : S256x1.Idx → EReal) (vb : S1x1.Idx → EReal) : S65536x1.Idx → EReal := fun i =>
  Cert.Attention.rowScore (fun j => E (ix2 (⟨(i 0).val, (i 0).isLt⟩ : Fin 65536) j)) (fun j k => Wm (ix2 j k))
    (fun k => be (ix2 (0 : Fin 1) k)) (fun k => dp (ix2 (0 : Fin 1) k)) (fun k => vw (ix2 k (0 : Fin 1)))
    (vb (ix2 (0 : Fin 1) (0 : Fin 1)))

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the encoder window and the output window move to block row `t`, every
    other window stays at block (0, 0). -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each input window's block at point `t`, read where the array says -/

theorem block_enc (c : Dev nD) (t : Fin cfg0.N) (y : Fin 2048) (j : Fin 256) (h : t.val * 2048 + y.val < 65536) :
    iblk0 V c 0 t (ix2 y j) = V c main_v37 (ix2 (⟨t.val * 2048 + y.val, h⟩ : Fin 65536) j) := by
  show V c main_v37 (((cfg0.win 0).blk t).view.emb (ix2 y j)) = _
  refine congrArg _ (funext fun a => Fin.ext ?_)
  obtain ⟨e0, e1, -⟩ := index_maps0 t
  match a with
  | ⟨0, _⟩ => show win0_0.index t (0 : Fin 2) * 2048 + 1 * y.val = t.val * 2048 + y.val; omega
  | ⟨1, _⟩ => show win0_0.index t (1 : Fin 2) * 256 + 1 * j.val = j.val; omega

theorem block_wenc (c : Dev nD) (t : Fin cfg0.N) (j k : Fin 256) :
    iblk0 V c 1 t (ix2 j k) = V c main_arg7 (ix2 j k) := by
  show V c main_arg7 (((cfg0.win 1).blk t).view.emb (ix2 j k)) = _
  refine congrArg _ (funext fun a => Fin.ext ?_)
  obtain ⟨-, -, e0, e1, -⟩ := index_maps0 t
  match a with
  | ⟨0, _⟩ => show win0_1.index t (0 : Fin 2) * 256 + 1 * j.val = j.val; omega
  | ⟨1, _⟩ => show win0_1.index t (1 : Fin 2) * 256 + 1 * k.val = k.val; omega

theorem block_benc (c : Dev nD) (t : Fin cfg0.N) (k : Fin 256) :
    iblk0 V c 2 t (ix2 (0 : Fin 1) k) = V c main_v38 (ix2 (0 : Fin 1) k) := by
  show V c main_v38 (((cfg0.win 2).blk t).view.emb (ix2 (0 : Fin 1) k)) = _
  refine congrArg _ (funext fun a => Fin.ext ?_)
  obtain ⟨-, -, -, -, e0, e1, -⟩ := index_maps0 t
  match a with
  | ⟨0, _⟩ => show win0_2.index t (0 : Fin 2) * 1 + 1 * (0 : Fin 1).val = (0 : Fin 1).val; omega
  | ⟨1, _⟩ => show win0_2.index t (1 : Fin 2) * 256 + 1 * k.val = k.val; omega

theorem block_dproj (c : Dev nD) (t : Fin cfg0.N) (k : Fin 256) :
    iblk0 V c 3 t (ix2 (0 : Fin 1) k) = V c main_v36 (ix2 (0 : Fin 1) k) := by
  show V c main_v36 (((cfg0.win 3).blk t).view.emb (ix2 (0 : Fin 1) k)) = _
  refine congrArg _ (funext fun a => Fin.ext ?_)
  obtain ⟨-, -, -, -, -, -, e0, e1, -⟩ := index_maps0 t
  match a with
  | ⟨0, _⟩ => show win0_3.index t (0 : Fin 2) * 1 + 1 * (0 : Fin 1).val = (0 : Fin 1).val; omega
  | ⟨1, _⟩ => show win0_3.index t (1 : Fin 2) * 256 + 1 * k.val = k.val; omega

theorem block_vw (c : Dev nD) (t : Fin cfg0.N) (k : Fin 256) :
    iblk0 V c 4 t (ix2 k (0 : Fin 1)) = V c main_arg11 (ix2 k (0 : Fin 1)) := by
  show V c main_arg11 (((cfg0.win 4).blk t).view.emb (ix2 k (0 : Fin 1))) = _
  refine congrArg _ (funext fun a => Fin.ext ?_)
  obtain ⟨-, -, -, -, -, -, -, -, e0, e1, -⟩ := index_maps0 t
  match a with
  | ⟨0, _⟩ => show win0_4.index t (0 : Fin 2) * 256 + 1 * k.val = k.val; omega
  | ⟨1, _⟩ => show win0_4.index t (1 : Fin 2) * 1 + 1 * (0 : Fin 1).val = (0 : Fin 1).val; omega

theorem block_vb (c : Dev nD) (t : Fin cfg0.N) :
    iblk0 V c 5 t (ix2 (0 : Fin 1) (0 : Fin 1)) = V c main_v39 (ix2 (0 : Fin 1) (0 : Fin 1)) := by
  show V c main_v39 (((cfg0.win 5).blk t).view.emb (ix2 (0 : Fin 1) (0 : Fin 1))) = _
  refine congrArg _ (funext fun a => Fin.ext ?_)
  obtain ⟨-, -, -, -, -, -, -, -, -, -, e0, e1, -⟩ := index_maps0 t
  match a with
  | ⟨0, _⟩ => show win0_5.index t (0 : Fin 2) * 1 + 1 * (0 : Fin 1).val = (0 : Fin 1).val; omega
  | ⟨1, _⟩ => show win0_5.index t (1 : Fin 2) * 1 + 1 * (0 : Fin 1).val = (0 : Fin 1).val; omega

/-! ## What point `t` writes back is block `t` of the score column -/

theorem flushed_score (c : Dev nD) (t : Fin cfg0.N) :
    (dat0 V c).flushed 6 t = ((cfg0.win 6).blk t).view.read (Elt Ideal)
      (scoreCol (V c main_v37) (V c main_arg7) (V c main_v38) (V c main_v36) (V c main_arg11) (V c main_v39)) := by
  show (cfg0.win 6).cut (grid0.coords t) ((dat0 V c).after 6 t) = _
  rw [after0_6]
  unfold out0_6
  rw [View.canon_unit_zero offsets_zero]
  simp only [View.ld_unit_zero (S := S2048x256) offsets_zero, View.ld_unit_zero (S := S256x256) offsets_zero,
    View.ld_unit_zero (S := S1x256) offsets_zero, View.ld_unit_zero (S := S256x1) offsets_zero,
    View.ld_unit_zero (S := S1x1) offsets_zero]
  funext y'
  obtain ⟨y, q, rfl⟩ : ∃ (y : Fin 2048) (q : Fin 1), y' = ix2 y q := ⟨y' 0, y' 1, eq_ix2 y'⟩
  obtain rfl : q = 0 := Subsingleton.elim _ _
  have ht : t.val < 32 := by have := t.isLt; have hN : cfg0.N = 32 := N_0; omega
  have hy : t.val * 2048 + y.val < 65536 := by have := y.isLt; omega
  obtain ⟨-, -, -, -, -, -, -, -, -, -, -, -, e0, e1⟩ := index_maps0 t
  show k0_pay1 (F := Ideal) (iblk0 V c 0 t) (iblk0 V c 1 t) (iblk0 V c 2 t) (iblk0 V c 3 t) (iblk0 V c 4 t) (iblk0 V c 5 t) (ix2 y (0 : Fin 1))
    = scoreCol (V c main_v37) (V c main_arg7) (V c main_v38) (V c main_v36) (V c main_arg11) (V c main_v39)
        (((cfg0.win 6).blk t).view.emb (ix2 y (0 : Fin 1)))
  refine (score_at (iblk0 V c 0 t) (iblk0 V c 1 t) (iblk0 V c 2 t) (iblk0 V c 3 t) (iblk0 V c 4 t) (iblk0 V c 5 t) y).trans ?_
  unfold scoreCol
  have hrow : (((cfg0.win 6).blk t).view.emb (ix2 y (0 : Fin 1)) 0).val = t.val * 2048 + y.val := by
    show win0_6.index t (0 : Fin 2) * 2048 + 1 * y.val = _; omega
  refine rowScore_congr (fun j => (block_enc V c t y j hy).trans (congrArg (V c main_v37) ?_)) (fun j k => block_wenc V c t j k)
    (fun k => block_benc V c t k) (fun k => block_dproj V c t k) (fun k => block_vw V c t k) (block_vb V c t)
  exact congrArg (fun a : Fin 65536 => (ix2 a j : S65536x256.Idx)) (Fin.ext hrow.symm)

/-! ## The blocks tile the column -/

theorem mem_block6 (t : Fin cfg0.N) (i : S65536x1.Idx) :
    i ∈ ((cfg0.win 6).blk t).view.set
      ↔ ∀ a : Fin 2, win0_6.index t a * S2048x1.size a ≤ (i a).val ∧ (i a).val < win0_6.index t a * S2048x1.size a + S2048x1.size a := by
  show i ∈ ((View.whole main_v40).slice (win0_6.rect t)).set ↔ _
  rw [View.set_slice_whole, Rect.mem_set_unit]
  exact Iff.rfl

theorem covered6 (i : S65536x1.Idx) : ∃ t : Fin cfg0.N, (cfg0.win 6).flush t = true ∧ i ∈ ((cfg0.win 6).blk t).view.set := by
  have hi0 : (i 0).val < 65536 := (i 0).isLt
  have hi1 : (i 1).val < 1 := (i 1).isLt
  have hN : cfg0.N = 32 := N_0
  let t : Fin cfg0.N := ⟨(i 0).val / 2048, by rw [hN]; omega⟩
  obtain ⟨-, -, -, -, -, -, -, -, -, -, -, -, e0, e1⟩ := index_maps0 t
  have e0' : win0_6.index t (0 : Fin 2) = (i 0).val / 2048 := e0
  refine ⟨t, flush0_6 t, ?_⟩
  rw [mem_block6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 1 ≤ (i 1).val ∧ (i 1).val < win0_6.index t (1 : Fin 2) * 1 + 1; omega

/-- After the 32 points the output array holds the score column of the arrays the kernel was entered with. -/
theorem scores_final (c : Dev nD) :
    (dat0 V c).arrAt 6 cfg0.N
      = scoreCol (V c main_v37) (V c main_arg7) (V c main_v38) (V c main_v36) (V c main_arg11) (V c main_v39) :=
  (dat0 V c).arrAt_eq_of_cover 6 _ (fun t _ => flushed_score V c t) covered6

end Cert.KernelSide

end
-- ==== Proof.KSoftmax.lean ====
/-
  The softmax kernel's stored value, read at one index, at the ideal (extended-real) values.

  The body takes a 512 × 128 block `v`, takes the maximum along the lanes of each row and then over the rows
  (each fold of `max` starting from −∞), broadcasts that one number back over the block, subtracts it,
  exponentiates, sums the exponentials along the lanes and then over the rows, broadcasts the total and divides.
  Read at lane `b` of row `a` this is `exp (v a b − M) / ∑ₚ ∑_q exp (v p q − M)` with `M` the two-stage maximum:
  the tiled softmax of the shared specification.

  The file first reads the three layout operations the body uses that keep a reduced axis as a unit axis
  (`[n] → [n, 1]`, and `[1, 1] → [m, n]`), then the two reductions along one axis at an index written by coordinates,
  then the two-stage maximum and the two-stage sum as constant functions of the index, and last the body.
-/
import proofs.«135827_j28578712388353_2_alg».proof.Proof.Gen.KernelIdeal.Skeleton
import proofs.«135827_j28578712388353_2_alg».proof.Proof.AttnSpec
import Idealize.ShloMosaic.Lib.ValueIdx
import Idealize.ShloMosaic.Lib.Pipeline.Value
import Idealize.ShloMosaic.Lib.ValueLayout
import Idealize.ShloMosaic.PureOps.Ideal.Laws

noncomputable section

namespace Cert.KernelSide

open Idealize.ShloMosaic Idealize.ShloMosaic.ValueIdx
open Cert.KernelIdeal Cert.KernelIdeal.Gen
open Cert.Attention

/-! ## Layout operations that keep a reduced axis as a unit axis -/

section Layout
variable {α : Type}

/-- An `[n]` array cast to the column `[n, 1]` reads, at `(i, u)`, the operand at `i`: both have row-major
    position `i`. -/
theorem shapeCast_a_a1_apply {n : ℕ} (x : (⟨1, ![n]⟩ : Shape).Idx → α) (h : (⟨1, ![n]⟩ : Shape).ShapeCasts ⟨2, ![n, 1]⟩)
    (i : Fin n) (u : Fin 1) : shapeCast ⟨2, ![n, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array broadcast to `[m, n]` reads its one element everywhere. -/
theorem broadcastTo_11_ab_apply {m n : ℕ} (v : (⟨2, ![1, 1]⟩ : Shape).Idx → α)
    (h : (⟨2, ![1, 1]⟩ : Shape).Broadcasts ⟨2, ![m, n]⟩) (p : Fin m) (c : Fin n) :
    broadcastTo ⟨2, ![m, n]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Layout

/-! ## The inserted index of each reduction, by coordinates -/

/-- Lane `q` inserted into row index `p` is the block index `(p, q)`. -/
theorem lift_lane (h : S512x128.Reduces [1] S512) (p : Fin 512) (q : Fin 128) : h.lift (ix1 p) q = ix2 p q :=
  funext fun c => Fin.ext (by match c with | ⟨0, _⟩ => rfl | ⟨1, _⟩ => rfl)

/-- Row `p` inserted into the one index `u` of the reduced column is the column index `(p, u)`. -/
theorem lift_row (h : S512x1.Reduces [0] S1) (u : Fin 1) (p : Fin 512) : h.lift (ix1 u) p = ix2 p u :=
  funext fun c => Fin.ext (by match c with | ⟨0, _⟩ => rfl | ⟨1, _⟩ => rfl)

/-! ## The reductions along one axis, at an index written by coordinates -/

section Reductions
variable (hφ : FKind.Formats .f32)

/-- The maximum along the lanes, at row `p`: the fold of `max` from −∞ over that row's 128 lanes. -/
theorem laneMax_at (w : FVec Ideal S512x128 .f32) (h : S512x128.Reduces [1] S512)
    (hacc : (0xFF800000#32 : BitVec 32) = FKind.maximumf.neutral .f32 hφ) (p : Fin 512) :
    multiReduction (F := Ideal) .maximumf [1] S512 w 0xFF800000#32 h hφ hacc (ix1 p)
      = (Finset.univ : Finset (Fin 128)).fold max negInf fun q => w (ix2 p q) := by
  refine (Ideal.multiReduction_maximumf_single w _ h hφ hacc (ix1 p)).trans ?_
  show (Finset.univ : Finset (Fin 128)).fold max negInf (fun q => w (h.lift (ix1 p) q)) = _
  exact congrArg (fun f => (Finset.univ : Finset (Fin 128)).fold max negInf f) (funext fun q => congrArg w (lift_lane h p q))

/-- The maximum of a column over its rows: the fold of `max` from −∞ over the 512 rows. -/
theorem rowMax_at (x : FVec Ideal S512x1 .f32) (h : S512x1.Reduces [0] S1)
    (hacc : (0xFF800000#32 : BitVec 32) = FKind.maximumf.neutral .f32 hφ) (u : Fin 1) :
    multiReduction (F := Ideal) .maximumf [0] S1 x 0xFF800000#32 h hφ hacc (ix1 u)
      = (Finset.univ : Finset (Fin 512)).fold max negInf fun p => x (ix2 p u) := by
  refine (Ideal.multiReduction_maximumf_single x _ h hφ hacc (ix1 u)).trans ?_
  show (Finset.univ : Finset (Fin 512)).fold max negInf (fun p => x (h.lift (ix1 u) p)) = _
  exact congrArg (fun f => (Finset.univ : Finset (Fin 512)).fold max negInf f) (funext fun p => congrArg x (lift_row h u p))

/-- The sum along the lanes, at row `p`. -/
theorem laneSum_at (w : FVec Ideal S512x128 .f32) (h : S512x128.Reduces [1] S512)
    (hacc : (0x00000000#32 : BitVec 32) = FKind.add.neutral .f32 hφ) (p : Fin 512) :
    multiReduction (F := Ideal) .add [1] S512 w 0x00000000#32 h hφ hacc (ix1 p) = ∑ q : Fin 128, w (ix2 p q) := by
  refine (Ideal.multiReduction_add_single w _ h hφ hacc (ix1 p)).trans ?_
  show ∑ q : Fin 128, w (h.lift (ix1 p) q) = _
  exact Finset.sum_congr rfl fun q _ => congrArg w (lift_lane h p q)

/-- The sum of a column over its rows. -/
theorem rowSum_at (x : FVec Ideal S512x1 .f32) (h : S512x1.Reduces [0] S1)
    (hacc : (0x00000000#32 : BitVec 32) = FKind.add.neutral .f32 hφ) (u : Fin 1) :
    multiReduction (F := Ideal) .add [0] S1 x 0x00000000#32 h hφ hacc (ix1 u) = ∑ p : Fin 512, x (ix2 p u) := by
  refine (Ideal.multiReduction_add_single x _ h hφ hacc (ix1 u)).trans ?_
  show ∑ p : Fin 512, x (h.lift (ix1 u) p) = _
  exact Finset.sum_congr rfl fun p _ => congrArg x (lift_row h u p)

/-! ## The two-stage maximum and the two-stage sum, broadcast back over the block -/

/-- Lanes first, rows second, the one number broadcast to every index: the tiled maximum, a constant function. -/
theorem blockMax_eq (w : FVec Ideal S512x128 .f32) (h1 : S512x128.Reduces [1] S512) (h0 : S512x1.Reduces [0] S1)
    (c1 : S512.ShapeCasts S512x1) (c2 : S1.ShapeCasts S1x1) (bc : S1x1.Broadcasts S512x128)
    (hacc : (0xFF800000#32 : BitVec 32) = FKind.maximumf.neutral .f32 hφ) :
    broadcastTo S512x128
        (shapeCast S1x1
          (multiReduction (F := Ideal) .maximumf [0] S1
            (shapeCast S512x1 (multiReduction (F := Ideal) .maximumf [1] S512 w 0xFF800000#32 h1 hφ hacc) c1)
            0xFF800000#32 h0 hφ hacc) c2) bc
      = fun _ => tiledMax fun p q => w (ix2 p q) := by
  funext j
  obtain ⟨a, b, rfl⟩ : ∃ (a : Fin 512) (b : Fin 128), j = ix2 a b := ⟨j 0, j 1, eq_ix2 j⟩
  refine (broadcastTo_11_ab_apply _ bc a b).trans ?_
  refine (shapeCast_a_a1_apply _ c2 0 0).trans ?_
  refine (rowMax_at hφ _ h0 hacc 0).trans ?_
  unfold tiledMax
  refine congrArg (fun f => (Finset.univ : Finset (Fin 512)).fold max negInf f) (funext fun p => ?_)
  refine (shapeCast_a_a1_apply _ c1 p 0).trans ?_
  exact laneMax_at hφ w h1 hacc p

/-- Lanes first, rows second, the total broadcast to every index: the double sum, a constant function. -/
theorem blockSum_eq (w : FVec Ideal S512x128 .f32) (h1 : S512x128.Reduces [1] S512) (h0 : S512x1.Reduces [0] S1)
    (c1 : S512.ShapeCasts S512x1) (c2 : S1.ShapeCasts S1x1) (bc : S1x1.Broadcasts S512x128)
    (hacc : (0x00000000#32 : BitVec 32) = FKind.add.neutral .f32 hφ) :
    broadcastTo S512x128
        (shapeCast S1x1
          (multiReduction (F := Ideal) .add [0] S1
            (shapeCast S512x1 (multiReduction (F := Ideal) .add [1] S512 w 0x00000000#32 h1 hφ hacc) c1)
            0x00000000#32 h0 hφ hacc) c2) bc
      = fun _ => ∑ p : Fin 512, ∑ q : Fin 128, w (ix2 p q) := by
  funext j
  obtain ⟨a, b, rfl⟩ : ∃ (a : Fin 512) (b : Fin 128), j = ix2 a b := ⟨j 0, j 1, eq_ix2 j⟩
  refine (broadcastTo_11_ab_apply _ bc a b).trans ?_
  refine (shapeCast_a_a1_apply _ c2 0 0).trans ?_
  refine (rowSum_at hφ _ h0 hacc 0).trans ?_
  refine Finset.sum_congr rfl fun p _ => ?_
  refine (shapeCast_a_a1_apply _ c1 p 0).trans ?_
  exact laneSum_at hφ w h1 hacc p

end Reductions

/-! ## The body -/

/-- The softmax kernel's stored value at lane `b` of row `a` is the tiled softmax of the block it read. -/
theorem softmax_at [Cert.KernelIdeal.Facts] (v0 : Vec Ideal S512x128 .f32) (a : Fin 512) (b : Fin 128) :
    k1_pay1 (F := Ideal) v0 (ValueIdx.ix2 a b) = Cert.Attention.softmaxTiled (fun p q => v0 (ValueIdx.ix2 p q)) a b := by
  have e1 : shapeCast S512x128 v0 shapeCasts_S512x128_S512x128 = v0 := shapeCast_self _ _
  unfold k1_pay1
  simp only [e1]
  rw [blockMax_eq (.inl rfl) v0 _ _ _ _ _ rfl, blockSum_eq (.inl rfl) _ _ _ _ _ _ rfl]
  rfl

end Cert.KernelSide

end
-- ==== Proof.KBlocks1.lean ====
/-
  The softmax kernel's output array, as one function of the array the kernel finds.

  The kernel has a single grid point whose one block is the whole 512 × 128 array; what it writes back is the
  tiled softmax of what it loaded, lane by lane, so the output array ends holding `softmaxArr` of the input array.
-/
import proofs.«135827_j28578712388353_2_alg».proof.Proof.Gen.KernelIdeal.Frame
import proofs.«135827_j28578712388353_2_alg».proof.Proof.AttnSpec
import proofs.«135827_j28578712388353_2_alg».proof.Proof.KSoftmax
import Idealize.ShloMosaic.Lib.ValueIdx
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.SL.Sem
open Idealize.ShloMosaic.Pipeline (Dat Cfg Window)
open Idealize.ShloMosaic.ValueIdx (ix2 eq_ix2)

/-- The tiled softmax of a 512 × 128 array, entry by entry. -/
def softmaxArr (U2 : S512x128.Idx → EReal) : S512x128.Idx → EReal := fun i =>
  Cert.Attention.softmaxTiled (fun p q => U2 (ix2 p q)) (⟨(i 0).val, (i 0).isLt⟩ : Fin 512) (⟨(i 1).val, (i 1).isLt⟩ : Fin 128)

variable (V : (c : Dev nD) → (b : Ref sig .tc) → Buf (Elt Ideal) ((c : Thread nD τ).loc b))

theorem offsets_zero1 : (![0, 0] : Fin 2 → Nat) = fun _ => 0 := funext fun a => by fin_cases a <;> rfl

/-- Both windows sit at block (0, 0) at the one grid point. -/
theorem index_maps1 : ∀ t : Fin cfg1.N,
    win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

theorem block_scores (c : Dev nD) (t : Fin cfg1.N) (p : Fin 512) (q : Fin 128) :
    iblk1 V c 0 t (ix2 p q) = V c main_v41 (ix2 p q) := by
  show V c main_v41 (((cfg1.win 0).blk t).view.emb (ix2 p q)) = _
  refine congrArg _ (funext fun a => Fin.ext ?_)
  obtain ⟨e0, e1, -⟩ := index_maps1 t
  match a with
  | ⟨0, _⟩ => show win1_0.index t (0 : Fin 2) * 512 + 1 * p.val = p.val; omega
  | ⟨1, _⟩ => show win1_0.index t (1 : Fin 2) * 128 + 1 * q.val = q.val; omega

theorem flushed_softmax (c : Dev nD) (t : Fin cfg1.N) :
    (dat1 V c).flushed 1 t = ((cfg1.win 1).blk t).view.read (Elt Ideal) (softmaxArr (V c main_v41)) := by
  show (cfg1.win 1).cut (grid1.coords t) ((dat1 V c).after 1 t) = _
  rw [after1_1]
  unfold out1_1
  rw [View.canon_unit_zero offsets_zero1]
  simp only [View.ld_unit_zero (S := S512x128) offsets_zero1]
  funext y'
  obtain ⟨a, b, rfl⟩ : ∃ (a : Fin 512) (b : Fin 128), y' = ix2 a b := ⟨y' 0, y' 1, eq_ix2 y'⟩
  obtain ⟨-, -, e0, e1⟩ := index_maps1 t
  show k1_pay1 (F := Ideal) (iblk1 V c 0 t) (ix2 a b) = softmaxArr (V c main_v41) (((cfg1.win 1).blk t).view.emb (ix2 a b))
  refine (softmax_at (iblk1 V c 0 t) a b).trans ?_
  unfold softmaxArr
  have h0 : (((cfg1.win 1).blk t).view.emb (ix2 a b) 0).val = a.val := by
    show win1_1.index t (0 : Fin 2) * 512 + 1 * a.val = _; omega
  have h1 : (((cfg1.win 1).blk t).view.emb (ix2 a b) 1).val = b.val := by
    show win1_1.index t (1 : Fin 2) * 128 + 1 * b.val = _; omega
  have hf : (fun (p : Fin 512) (q : Fin 128) => iblk1 V c 0 t (ix2 p q)) = fun p q => V c main_v41 (ix2 p q) :=
    funext fun p => funext fun q => block_scores V c t p q
  rw [hf]
  exact congr (congrArg _ (Fin.ext h0.symm)) (Fin.ext h1.symm)

theorem mem_block1 (t : Fin cfg1.N) (i : S512x128.Idx) :
    i ∈ ((cfg1.win 1).blk t).view.set
      ↔ ∀ a : Fin 2, win1_1.index t a * S512x128.size a ≤ (i a).val ∧ (i a).val < win1_1.index t a * S512x128.size a + S512x128.size a := by
  show i ∈ ((View.whole main_v42).slice (win1_1.rect t)).set ↔ _
  rw [View.set_slice_whole, Rect.mem_set_unit]
  exact Iff.rfl

theorem covered1 (i : S512x128.Idx) : ∃ t : Fin cfg1.N, (cfg1.win 1).flush t = true ∧ i ∈ ((cfg1.win 1).blk t).view.set := by
  have hi0 : (i 0).val < 512 := (i 0).isLt
  have hi1 : (i 1).val < 128 := (i 1).isLt
  obtain ⟨-, -, e0, e1⟩ := index_maps1 t1_0
  refine ⟨t1_0, flush1_1 t1_0, ?_⟩
  rw [mem_block1]
  intro a
  match a with
  | ⟨0, _⟩ => show win1_1.index t1_0 (0 : Fin 2) * 512 ≤ (i 0).val ∧ (i 0).val < win1_1.index t1_0 (0 : Fin 2) * 512 + 512; omega
  | ⟨1, _⟩ => show win1_1.index t1_0 (1 : Fin 2) * 128 ≤ (i 1).val ∧ (i 1).val < win1_1.index t1_0 (1 : Fin 2) * 128 + 128; omega

/-- After its one point the output array holds the tiled softmax of the array the kernel was entered with. -/
theorem softmax_final (c : Dev nD) : (dat1 V c).arrAt 1 cfg1.N = softmaxArr (V c main_v41) :=
  (dat1 V c).arrAt_eq_of_cover 1 _ (fun t _ => flushed_softmax V c t) covered1

end Cert.KernelSide

end
-- ==== Proof.TiledLaw.lean ====
/-
  The tiled softmax is the flat softmax.

  A maximum folded from −∞ along the 128 lanes of each row and then over the 512 rows is the maximum folded
  once over all 65536 positions: both are the least upper bound of −∞ and all the scores, because every flat
  position is lane `q % 128` of row `q / 128`.  A sum taken lanes first, rows second, is the sum over all
  positions, by the same bijection between pairs (row, lane) and flat positions.  Only the order and the
  commutative additive monoid structure of the extended reals are used; no score needs to be finite.
-/
import proofs.«135827_j28578712388353_2_alg».proof.Proof.AttnSpec

noncomputable section

namespace Cert.Attention

open Idealize.ShloMosaic

/-- Every flat position is lane `q % 128` of row `q / 128`. -/
theorem flatPos_divMod (q : Fin 65536) :
    flatPos ⟨q.val / 128, by have := q.isLt; omega⟩ ⟨q.val % 128, by omega⟩ = q := by
  apply Fin.ext
  show q.val / 128 * 128 + q.val % 128 = q.val
  omega

/-- Pairs (row, lane) and flat positions correspond one to one. -/
def flatEquiv : Fin 512 × Fin 128 ≃ Fin 65536 where
  toFun p := flatPos p.1 p.2
  invFun q := (⟨q.val / 128, by have := q.isLt; omega⟩, ⟨q.val % 128, by omega⟩)
  left_inv := by
    rintro ⟨a, b⟩
    have ha := a.isLt
    have hb := b.isLt
    apply Prod.ext
    · apply Fin.ext
      show (a.val * 128 + b.val) / 128 = a.val
      omega
    · apply Fin.ext
      show (a.val * 128 + b.val) % 128 = b.val
      omega
  right_inv := flatPos_divMod

/-- The maximum taken lanes first, rows second, is the maximum over all positions. -/
theorem tiledMax_eq (u : Fin 65536 → EReal) :
    tiledMax (fun p q => u (flatPos p q)) = flatMax u := by
  unfold tiledMax flatMax
  apply le_antisymm
  · refine (Finset.fold_max_le _).mpr ⟨(Finset.le_fold_max _).mpr (Or.inl le_rfl), fun a _ => ?_⟩
    refine (Finset.fold_max_le _).mpr ⟨(Finset.le_fold_max _).mpr (Or.inl le_rfl), fun b _ => ?_⟩
    exact (Finset.le_fold_max _).mpr (Or.inr ⟨flatPos a b, Finset.mem_univ _, le_rfl⟩)
  · refine (Finset.fold_max_le _).mpr ⟨(Finset.le_fold_max _).mpr (Or.inl le_rfl), fun q _ => ?_⟩
    refine (Finset.le_fold_max _).mpr (Or.inr ⟨⟨q.val / 128, by have := q.isLt; omega⟩, Finset.mem_univ _, ?_⟩)
    refine (Finset.le_fold_max _).mpr (Or.inr ⟨⟨q.val % 128, by omega⟩, Finset.mem_univ _, ?_⟩)
    exact le_of_eq (congrArg u (flatPos_divMod q)).symm

/-- A sum taken lanes first, rows second, is the sum over all positions. -/
theorem tiledSum_eq (g : Fin 65536 → EReal) :
    (∑ p : Fin 512, ∑ q : Fin 128, g (flatPos p q)) = ∑ r : Fin 65536, g r := by
  have h1 : (∑ p : Fin 512, ∑ q : Fin 128, g (flatPos p q))
      = ∑ x : Fin 512 × Fin 128, g (flatEquiv x) :=
    (Fintype.sum_prod_type' (fun p q => g (flatPos p q))).symm
  exact h1.trans (Equiv.sum_comp flatEquiv g)

/-- The softmax of the scores laid out as 512 rows of 128 lanes is the softmax of the flat score vector. -/
theorem softmaxTiled_eq (u : Fin 65536 → EReal) (a : Fin 512) (b : Fin 128) :
    softmaxTiled (fun p q => u (flatPos p q)) a b = softmaxFlat u (flatPos a b) := by
  unfold softmaxTiled softmaxFlat
  rw [tiledMax_eq u]
  exact congrArg (Ideal.div (Ideal.exp (u (flatPos a b) - flatMax u)))
    (tiledSum_eq (fun r => Ideal.exp (u r - flatMax u)))

end Cert.Attention

end
-- ==== Proof.KValue.lean ====
/-
  The idealized kernel program's result, as a function of the launch memory.

  Reading the fold backwards from the result buffer: the last host reshape flattens the softmax kernel's
  512 × 128 output; that output is the tiled softmax of the kernel's input (one block); the input is the host
  reshape of the 65536 × 1 score column, so its entry (p, q) is the score at flat position `128·p + q`; the
  score column is `scoreCol` of the six arrays the scoring kernel was entered with; and those are host re-layouts
  of the arguments (the encoder output with its leading unit axis dropped, the encoder bias and the scalar bias
  with a unit axis added) and the decoder projection, which the host computes by the same chain of operations as
  the reference does (one opaque array here).  The tiled softmax of a layout of the flat scores is their flat
  softmax, so entry `r` of the result is `softmaxFlat` of the scores at `r`.
-/
import proofs.«135827_j28578712388353_2_alg».proof.Proof.KRun
import proofs.«135827_j28578712388353_2_alg».proof.Proof.KBlocks0
import proofs.«135827_j28578712388353_2_alg».proof.Proof.KBlocks1
import proofs.«135827_j28578712388353_2_alg».proof.Proof.TiledLaw
import proofs.«135827_j28578712388353_2_alg».proof.Proof.Gen.ReferenceIdeal.Read
import Idealize.ShloMosaic.Lib.StableHlo.Run
import Idealize.ShloMosaic.Lib.ValueIdx
import Idealize.ShloMosaic.Lib.Pipeline.Value

set_option maxRecDepth 16384

noncomputable section

namespace Cert.KernelSide

open Cert.KernelIdeal Cert.KernelIdeal.Gen
open Idealize.ShloMosaic Idealize.ShloMosaic.TcCoe Idealize.SL.Sem Idealize.ShloMosaic.StableHlo
open Idealize.ShloMosaic.ValueIdx (ix1 ix2 ix3 eq_ix1)

variable (m : (ℓ : Loc nD τ sig) → Buf (Elt Ideal) ℓ) (ρ : Dev nD → PrngReg)

/-! ## The arguments, typed as arrays -/

abbrev argEnc (c : Dev nD) : S1x65536x256.Idx → EReal := m ((c : Thread nD τ).loc main_arg0)
abbrev argWenc (c : Dev nD) : S256x256.Idx → EReal := m ((c : Thread nD τ).loc main_arg7)
abbrev argBenc (c : Dev nD) : S256.Idx → EReal := m ((c : Thread nD τ).loc main_arg8)
abbrev argVw (c : Dev nD) : S256x1.Idx → EReal := m ((c : Thread nD τ).loc main_arg11)
abbrev argVb (c : Dev nD) : S1.Idx → EReal := m ((c : Thread nD τ).loc main_arg12)

/-- The decoder projection `h · W_dec + b_dec` of the one LSTM step, as the reference's chain of host
    operations computes it from the arguments: kept as one array, never opened. -/
def decProj (c : Dev nD) : Cert.ReferenceIdeal.S1x256.Idx → EReal :=
  Cert.ReferenceIdeal.Read.val_main_v36 (F := Ideal)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg9)) (m ((c : Thread nD τ).loc main_arg10))

/-- The score of encoder row `q`, from the launch memory. -/
def scoreOf (c : Dev nD) (q : Fin 65536) : EReal :=
  Cert.Attention.rowScore (fun j => argEnc m c (ix3 (0 : Fin 1) q j)) (fun j k => argWenc m c (ix2 j k)) (fun k => argBenc m c (ix1 k))
    (fun k => decProj m c (ix2 (0 : Fin 1) k)) (fun k => argVw m c (ix2 k (0 : Fin 1))) (argVb m c (ix1 (0 : Fin 1)))

/-! ## What the scoring kernel is entered with -/

theorem entry_enc (c : Dev nD) :
    (V1 m ρ c main_v37 : S65536x256.Idx → EReal) = shapeCast S65536x256 (argEnc m c) shapeCasts_S1x65536x256_S65536x256 := by
  dsimp only [V1, W1, hostOps0]
  after_results_simp <;> rfl

theorem entry_wenc (c : Dev nD) : (V1 m ρ c main_arg7 : S256x256.Idx → EReal) = argWenc m c := by
  dsimp only [V1, W1, hostOps0]
  after_results_simp <;> rfl

theorem entry_benc (c : Dev nD) :
    (V1 m ρ c main_v38 : S1x256.Idx → EReal) = shapeCast S1x256 (argBenc m c) shapeCasts_S256_S1x256 := by
  dsimp only [V1, W1, hostOps0]
  after_results_simp <;> rfl

theorem entry_dproj (c : Dev nD) : (V1 m ρ c main_v36 : S1x256.Idx → EReal) = decProj m c := by
  dsimp only [V1, W1, hostOps0]
  after_results_simp <;> rfl

theorem entry_vw (c : Dev nD) : (V1 m ρ c main_arg11 : S256x1.Idx → EReal) = argVw m c := by
  dsimp only [V1, W1, hostOps0]
  after_results_simp <;> rfl

theorem entry_vb (c : Dev nD) :
    (V1 m ρ c main_v39 : S1x1.Idx → EReal) = shapeCast S1x1 (argVb m c) shapeCasts_S1_S1x1 := by
  dsimp only [V1, W1, hostOps0]
  after_results_simp <;> rfl

/-- Entry `q` of the score column built from the entry contents is the score of encoder row `q`. -/
theorem scores_at_entry (c : Dev nD) (q : Fin 65536) :
    scoreCol (V1 m ρ c main_v37) (V1 m ρ c main_arg7) (V1 m ρ c main_v38) (V1 m ρ c main_v36) (V1 m ρ c main_arg11)
      (V1 m ρ c main_v39) (ix2 q (0 : Fin 1)) = scoreOf m c q := by
  unfold scoreCol scoreOf
  refine rowScore_congr (fun j => ?_) (fun j k => ?_) (fun k => ?_) (fun k => ?_) (fun k => ?_) ?_
  · -- the encoder matrix is the argument with its leading unit axis dropped
    refine (congrFun (entry_enc m ρ c) _).trans ?_
    refine shapeCast_apply _ _ _ (ix3 (0 : Fin 1) q j) ?_
    rw [Shape.rowMajor_val_three, Shape.rowMajor_val_two]
    show ((0 : Fin 1).val * 65536 + q.val) * 256 + j.val = q.val * 256 + j.val
    simp
  · exact congrFun (entry_wenc m ρ c) _
  · -- the encoder bias as one row
    refine (congrFun (entry_benc m ρ c) _).trans ?_
    refine shapeCast_apply _ _ _ (ix1 k) ?_
    rw [Shape.rowMajor_val_one, Shape.rowMajor_val_two]
    show k.val = (0 : Fin 1).val * 256 + k.val
    simp
  · exact congrFun (entry_dproj m ρ c) _
  · exact congrFun (entry_vw m ρ c) _
  · -- the scalar bias as a 1 × 1 array
    refine (congrFun (entry_vb m ρ c) _).trans ?_
    refine shapeCast_apply _ _ _ (ix1 (0 : Fin 1)) ?_
    rw [Shape.rowMajor_val_one, Shape.rowMajor_val_two]
    rfl

/-! ## What the softmax kernel is entered with, and the result -/

theorem entry_scores (c : Dev nD) :
    (V3 m ρ c main_v41 : S512x128.Idx → EReal)
      = shapeCast S512x128 ((dat0 (V1 m ρ) c).arrAt 6 cfg0.N) shapeCasts_S65536x1_S512x128 := by
  have e := W2_arr m ρ c 6
  dsimp only [V3, W3, hostOps1]
  after_results_simp
  exact congrArg (fun x => shapeCast S512x128 x shapeCasts_S65536x1_S512x128) e

theorem result_fold (c : Dev nD) :
    (W5 m ρ c (Proc.devRef .tc main_v43) : S65536.Idx → EReal)
      = shapeCast S65536 ((dat1 (V3 m ρ) c).arrAt 1 cfg1.N) shapeCasts_S512x128_S65536 := by
  have e := W4_arr m ρ c 1
  dsimp only [W5, hostOps2]
  after_results_simp
  exact congrArg (fun x => shapeCast S65536 x shapeCasts_S512x128_S65536) e

/-- Lane `q` of row `p` of the softmax kernel's input is the score at flat position `128·p + q`. -/
theorem tile_entry (c : Dev nD) (p : Fin 512) (q : Fin 128) :
    (V3 m ρ c main_v41 : S512x128.Idx → EReal) (ix2 p q) = scoreOf m c (Cert.Attention.flatPos p q) := by
  refine (congrFun (entry_scores m ρ c) _).trans ?_
  rw [scores_final]
  refine (shapeCast_apply _ _ (ix2 p q) (ix2 (Cert.Attention.flatPos p q) (0 : Fin 1)) ?_).trans (scores_at_entry m ρ c _)
  rw [Shape.rowMajor_val_two, Shape.rowMajor_val_two]
  show (p.val * 128 + q.val) * 1 + (0 : Fin 1).val = p.val * 128 + q.val
  simp

/-- Entry `r` of the result is the flat softmax of the scores at `r`. -/
theorem result_value (c : Dev nD) (r : Fin 65536) :
    (W5 m ρ c (Proc.devRef .tc main_v43) : S65536.Idx → EReal) (ix1 r) = Cert.Attention.softmaxFlat (scoreOf m c) r := by
  have ha : r.val / 128 < 512 := by have := r.isLt; omega
  have hb : r.val % 128 < 128 := Nat.mod_lt _ (by decide)
  refine (congrFun (result_fold m ρ c) _).trans ?_
  rw [softmax_final]
  refine (shapeCast_apply _ _ (ix1 r) (ix2 (⟨r.val / 128, ha⟩ : Fin 512) (⟨r.val % 128, hb⟩ : Fin 128)) ?_).trans ?_
  · rw [Shape.rowMajor_val_two, Shape.rowMajor_val_one]
    show r.val / 128 * 128 + r.val % 128 = r.val
    omega
  unfold softmaxArr
  have hf : (fun (p : Fin 512) (q : Fin 128) => (V3 m ρ c main_v41 : S512x128.Idx → EReal) (ix2 p q))
      = fun p q => scoreOf m c (Cert.Attention.flatPos p q) := funext fun p => funext fun q => tile_entry m ρ c p q
  show Cert.Attention.softmaxTiled (fun (p : Fin 512) (q : Fin 128) => (V3 m ρ c main_v41 : S512x128.Idx → EReal) (ix2 p q))
      (⟨r.val / 128, ha⟩ : Fin 512) (⟨r.val % 128, hb⟩ : Fin 128) = _
  rw [hf, Cert.Attention.softmaxTiled_eq]
  refine congrArg (Cert.Attention.softmaxFlat (scoreOf m c)) (Fin.ext ?_)
  show r.val / 128 * 128 + r.val % 128 = r.val
  omega

end Cert.KernelSide

end
-- ==== Proof.RefScore.lean ====
/-
  The reference program's score vector, read at a row.

  The reference flattens the encoder output to 65536 rows of 256 features, multiplies by the encoder weight,
  adds the encoder bias and the (already computed) decoder projection, applies tanh, contracts with the weight
  column and adds the scalar bias.  Each stage is read here at an index written with explicit coordinates, so
  that the composed index maps of the reshapes and broadcasts collapse to plain coordinates; the last theorem
  states that entry `r` of the score vector is the specification's `rowScore` of row `r`.
-/
import proofs.«135827_j28578712388353_2_alg».proof.Proof.Gen.ReferenceIdeal.Read
import proofs.«135827_j28578712388353_2_alg».proof.Proof.AttnSpec

noncomputable section

namespace Cert.RefSide

open Idealize.ShloMosaic Idealize.ShloMosaic.ValueIdx Cert.ReferenceIdeal Cert.ReferenceIdeal.Read

/-! ## Index maps at explicit coordinates -/

/-- Row `r`, feature `j` of the flattened encoder output sits at `(0, r, j)` of the original:
    `(256·r + j) / 256 = r` and `(256·r + j) % 256 = j`. -/
theorem idx37_at (r : Fin 65536) (j : Fin 256) : idx_main_v37 (ix2 r j) = ix3 (0 : Fin 1) r j :=
  funext fun a => Fin.ext (by
    have hr : r.val < 65536 := r.isLt
    have hj : j.val < 256 := j.isLt
    match a with
    | ⟨0, _⟩ => rfl
    | ⟨1, _⟩ => show (r.val * 256 + j.val) / 256 % 65536 = r.val; omega
    | ⟨2, _⟩ => show (r.val * 256 + j.val) % 256 = j.val; omega)

theorem lidx38_at (r : Fin 65536) (k j : Fin 256) : lidx_main_v38 (ix2 r k) j = ix2 r j :=
  funext fun a => Fin.ext (by match a with | ⟨0, _⟩ => rfl | ⟨1, _⟩ => rfl)

theorem ridx38_at (r : Fin 65536) (k j : Fin 256) : ridx_main_v38 (ix2 r k) j = ix2 j k :=
  funext fun a => Fin.ext (by match a with | ⟨0, _⟩ => rfl | ⟨1, _⟩ => rfl)

theorem idx40_at (r : Fin 65536) (k : Fin 256) : idx_main_v39 (idx_main_v40 (ix2 r k)) = ix1 k :=
  funext fun a => Fin.ext (by match a with | ⟨0, _⟩ => rfl)

theorem idx42_at (r : Fin 65536) (k : Fin 256) : idx_main_v42 (ix2 r k) = ix2 (0 : Fin 1) k :=
  funext fun a => Fin.ext (by match a with | ⟨0, _⟩ => rfl | ⟨1, _⟩ => rfl)

/-- Entry `r` of the flat score vector is entry `(r, 0)` of the column it is reshaped from. -/
theorem idx49_at (r : Fin 65536) : idx_main_v49 (ix1 r) = ix2 r (0 : Fin 1) :=
  funext fun a => Fin.ext (by
    match a with
    | ⟨0, _⟩ => show r.val / 1 = r.val; exact Nat.div_one _
    | ⟨1, _⟩ => rfl)

theorem lidx45_at (r : Fin 65536) (k : Fin 256) : lidx_main_v45 (ix2 r (0 : Fin 1)) k = ix2 r k :=
  funext fun a => Fin.ext (by match a with | ⟨0, _⟩ => rfl | ⟨1, _⟩ => rfl)

theorem ridx45_at (r : Fin 65536) (k : Fin 256) : ridx_main_v45 (ix2 r (0 : Fin 1)) k = ix2 k (0 : Fin 1) :=
  funext fun a => Fin.ext (by match a with | ⟨0, _⟩ => rfl | ⟨1, _⟩ => rfl)

theorem idx47_at (r : Fin 65536) : idx_main_v46 (idx_main_v47 (ix2 r (0 : Fin 1))) = ix1 (0 : Fin 1) :=
  funext fun a => Fin.ext (by match a with | ⟨0, _⟩ => rfl)

/-! ## The stages at explicit coordinates -/

/-- The encoder projection: `(x · W)[r, k] = ∑ⱼ x[0, r, j] · W[j, k]`. -/
theorem v38_at (x0 : (⟨S1x65536x256, .f32⟩ : BufTy).Contents (Elt Ideal)) (x7 : (⟨S256x256, .f32⟩ : BufTy).Contents (Elt Ideal))
    (r : Fin 65536) (k : Fin 256) :
    val_main_v38 (F := Ideal) x0 x7 (ix2 r k) = ∑ j : Fin 256, x0 (ix3 (0 : Fin 1) r j) * x7 (ix2 j k) := by
  rw [val_main_v38_apply]
  refine Finset.sum_congr rfl fun j _ => ?_
  rw [lidx38_at, ridx38_at, val_main_v37_apply, idx37_at]

/-- The pre-activation: projection plus encoder bias plus decoder projection, then tanh. -/
theorem v44_at (x0 : (⟨S1x65536x256, .f32⟩ : BufTy).Contents (Elt Ideal)) (x1 x2 : (⟨S1x256, .f32⟩ : BufTy).Contents (Elt Ideal)) (x3 : (⟨S1x1x256, .f32⟩ : BufTy).Contents (Elt Ideal)) (x4 x5 : (⟨S256x1024, .f32⟩ : BufTy).Contents (Elt Ideal)) (x6 : (⟨S1024, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal))
    (r : Fin 65536) (k : Fin 256) :
    val_main_v44 (F := Ideal) x0 x1 x2 x3 x4 x5 x6 x7 x8 x9 x10 (ix2 r k)
      = Ideal.tanh (((∑ j : Fin 256, x0 (ix3 (0 : Fin 1) r j) * x7 (ix2 j k)) + x8 (ix1 k))
          + val_main_v36 (F := Ideal) x1 x2 x3 x4 x5 x6 x9 x10 (ix2 (0 : Fin 1) k)) := by
  rw [val_main_v44_apply, val_main_v43_apply, val_main_v41_apply, val_main_v42_apply, val_main_v40_apply, val_main_v39_apply,
    v38_at, idx40_at, idx42_at]
  rfl

/-- Entry `r` of the reference's score vector is the specification's score of row `r`. -/
theorem score_at (x0 : (⟨S1x65536x256, .f32⟩ : BufTy).Contents (Elt Ideal)) (x1 x2 : (⟨S1x256, .f32⟩ : BufTy).Contents (Elt Ideal)) (x3 : (⟨S1x1x256, .f32⟩ : BufTy).Contents (Elt Ideal)) (x4 x5 : (⟨S256x1024, .f32⟩ : BufTy).Contents (Elt Ideal)) (x6 : (⟨S1024, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x1, .f32⟩ : BufTy).Contents (Elt Ideal)) (x12 : (⟨S1, .f32⟩ : BufTy).Contents (Elt Ideal))
    (r : Fin 65536) :
    val_main_v49 (F := Ideal) x0 x1 x2 x3 x4 x5 x6 x7 x8 x9 x10 x11 x12 (ValueIdx.ix1 r)
      = Cert.Attention.rowScore (fun j => x0 (ValueIdx.ix3 (0 : Fin 1) r j)) (fun j k => x7 (ValueIdx.ix2 j k)) (fun k => x8 (ValueIdx.ix1 k))
          (fun k => val_main_v36 (F := Ideal) x1 x2 x3 x4 x5 x6 x9 x10 (ValueIdx.ix2 (0 : Fin 1) k)) (fun k => x11 (ValueIdx.ix2 k (0 : Fin 1))) (x12 (ValueIdx.ix1 (0 : Fin 1))) := by
  rw [val_main_v49_apply, idx49_at, val_main_v48_apply, val_main_v45_apply, val_main_v47_apply, val_main_v46_apply, idx47_at]
  unfold Cert.Attention.rowScore
  show (∑ k : Fin 256, _) + _ = (∑ k : Fin 256, _) + _
  congr 1
  refine Finset.sum_congr rfl fun k _ => ?_
  rw [lidx45_at, ridx45_at, v44_at]

end Cert.RefSide

end
-- ==== Proof.RefSoftmax.lean ====
/-
  The reference program's result, read at a position.

  After the score vector the reference takes its maximum (a fold from −∞, then once more a maximum with −∞),
  subtracts it from every score, exponentiates, sums the exponentials from 0, and divides each exponential by
  the sum.  The maximum and the sum run over the positions of a vector of 65536 entries; they are re-indexed
  here by the numbers below 65536, and the result at position `r` is the specification's `softmaxFlat` of the
  row scores.
-/
import proofs.«135827_j28578712388353_2_alg».proof.Proof.RefScore

noncomputable section

namespace Cert.RefSide

open Idealize.ShloMosaic Idealize.ShloMosaic.ValueIdx Cert.ReferenceIdeal Cert.ReferenceIdeal.Gen Cert.ReferenceIdeal.Read

/-- The positions of a vector of 65536 entries are the numbers below 65536. -/
def flatIdx : Fin 65536 ≃ S65536.Idx where
  toFun := ix1
  invFun := fun j => j 0
  left_inv := fun _ => rfl
  right_inv := fun j => (eq_ix1 j).symm

/-- The maximum over the whole vector, folded from −∞: every position drops to the one scalar index, and the
    fold over the positions is the fold over the numbers below 65536. -/
theorem reduceMax_flat (y : (⟨S65536, .f32⟩ : BufTy).Contents (Elt Ideal)) (i : S_.Idx) :
    Host.reduce (FloatOps.maximumf (F := Ideal) (φ := .f32)) y (val_main_cst_5 (F := Ideal)) reducesTo_S65536_S_d0 h_S_ i
      = Cert.Attention.flatMax (fun q => y (ix1 q)) := by
  rw [Host.reduce_eq_fold, Finset.filter_true_of_mem (fun j _ => funext fun b => b.elim0)]
  rw [← Finset.map_univ_equiv flatIdx, Finset.fold_map]
  rfl

/-- A maximum folded from `b` is at least `b`, so taking the maximum with `b` once more changes nothing. -/
theorem max_fold_self (b : EReal) (u : Fin 65536 → EReal) :
    max b ((Finset.univ : Finset (Fin 65536)).fold max b u) = (Finset.univ : Finset (Fin 65536)).fold max b u :=
  max_eq_right ((Finset.le_fold_max b).2 (Or.inl le_rfl))

/-- The reference's result at position `r`, over its own score vector. -/
theorem result_raw (x0 : (⟨S1x65536x256, .f32⟩ : BufTy).Contents (Elt Ideal)) (x1 x2 : (⟨S1x256, .f32⟩ : BufTy).Contents (Elt Ideal)) (x3 : (⟨S1x1x256, .f32⟩ : BufTy).Contents (Elt Ideal)) (x4 x5 : (⟨S256x1024, .f32⟩ : BufTy).Contents (Elt Ideal)) (x6 : (⟨S1024, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x1, .f32⟩ : BufTy).Contents (Elt Ideal)) (x12 : (⟨S1, .f32⟩ : BufTy).Contents (Elt Ideal))
    (r : Fin 65536) :
    val_main_v59 (F := Ideal) x0 x1 x2 x3 x4 x5 x6 x7 x8 x9 x10 x11 x12 (ix1 r)
      = Cert.Attention.softmaxFlat (fun q => val_main_v49 (F := Ideal) x0 x1 x2 x3 x4 x5 x6 x7 x8 x9 x10 x11 x12 (ix1 q)) r := by
  have hmax : ∀ i : S_.Idx, val_main_v51 (F := Ideal) x0 x1 x2 x3 x4 x5 x6 x7 x8 x9 x10 x11 x12 i
      = Cert.Attention.flatMax (fun q => val_main_v49 (F := Ideal) x0 x1 x2 x3 x4 x5 x6 x7 x8 x9 x10 x11 x12 (ix1 q)) := by
    intro i
    rw [val_main_v51_apply, val_main_cst_6_apply]
    unfold val_main_v50
    rw [reduceMax_flat]
    exact max_fold_self _ _
  have hexp : ∀ q : Fin 65536, val_main_v55 (F := Ideal) x0 x1 x2 x3 x4 x5 x6 x7 x8 x9 x10 x11 x12 (ix1 q)
      = Ideal.exp (val_main_v49 (F := Ideal) x0 x1 x2 x3 x4 x5 x6 x7 x8 x9 x10 x11 x12 (ix1 q)
          - Cert.Attention.flatMax (fun q => val_main_v49 (F := Ideal) x0 x1 x2 x3 x4 x5 x6 x7 x8 x9 x10 x11 x12 (ix1 q))) := by
    intro q
    rw [val_main_v55_apply, val_main_v54_apply, val_main_v53_apply, val_main_v52_apply, hmax]
    rfl
  have hsum : ∀ i : S_.Idx, val_main_v56 (F := Ideal) x0 x1 x2 x3 x4 x5 x6 x7 x8 x9 x10 x11 x12 i
      = ∑ q : Fin 65536, Ideal.exp (val_main_v49 (F := Ideal) x0 x1 x2 x3 x4 x5 x6 x7 x8 x9 x10 x11 x12 (ix1 q)
          - Cert.Attention.flatMax (fun q => val_main_v49 (F := Ideal) x0 x1 x2 x3 x4 x5 x6 x7 x8 x9 x10 x11 x12 (ix1 q))) := by
    intro i
    rw [val_main_v56_apply, val_main_cst_7_apply]
    show Ideal.ofBits .f32 0x00000000#32 + _ = _
    rw [Ideal.ofBits_zero_f32, zero_add, ← Equiv.sum_comp flatIdx]
    exact Finset.sum_congr rfl fun q _ => hexp q
  rw [val_main_v59_apply, val_main_v58_apply, val_main_v57_apply, hsum, hexp]
  rfl

/-- The reference's result at position `r` is the softmax, over all 65536 rows, of the specification's row scores. -/
theorem result_at (x0 : (⟨S1x65536x256, .f32⟩ : BufTy).Contents (Elt Ideal)) (x1 x2 : (⟨S1x256, .f32⟩ : BufTy).Contents (Elt Ideal)) (x3 : (⟨S1x1x256, .f32⟩ : BufTy).Contents (Elt Ideal)) (x4 x5 : (⟨S256x1024, .f32⟩ : BufTy).Contents (Elt Ideal)) (x6 : (⟨S1024, .f32⟩ : BufTy).Contents (Elt Ideal)) (x7 : (⟨S256x256, .f32⟩ : BufTy).Contents (Elt Ideal)) (x8 : (⟨S256, .f32⟩ : BufTy).Contents (Elt Ideal)) (x9 : (⟨S256x256, .f32⟩ : BufTy).Contents (Elt Ideal)) (x10 : (⟨S256, .f32⟩ : BufTy).Contents (Elt Ideal)) (x11 : (⟨S256x1, .f32⟩ : BufTy).Contents (Elt Ideal)) (x12 : (⟨S1, .f32⟩ : BufTy).Contents (Elt Ideal))
    (r : Fin 65536) :
    val_main_v59 (F := Ideal) x0 x1 x2 x3 x4 x5 x6 x7 x8 x9 x10 x11 x12 (ValueIdx.ix1 r)
      = Cert.Attention.softmaxFlat (fun q => Cert.Attention.rowScore (fun j => x0 (ValueIdx.ix3 (0 : Fin 1) q j)) (fun j k => x7 (ValueIdx.ix2 j k)) (fun k => x8 (ValueIdx.ix1 k))
          (fun k => val_main_v36 (F := Ideal) x1 x2 x3 x4 x5 x6 x9 x10 (ValueIdx.ix2 (0 : Fin 1) k)) (fun k => x11 (ValueIdx.ix2 k (0 : Fin 1))) (x12 (ValueIdx.ix1 (0 : Fin 1)))) r := by
  rw [result_raw]
  exact congrArg (fun u => Cert.Attention.softmaxFlat u r) (funext fun q => score_at x0 x1 x2 x3 x4 x5 x6 x7 x8 x9 x10 x11 x12 q)

end Cert.RefSide

end
-- ==== Proof.lean ====
/-
  Additive (Bahdanau) attention weights over 65536 encoder steps: the kernel program against its reference.

  Both programs first run one LSTM step on the start token and project its hidden state (`d_proj`), by the same
  host operations.  The reference then scores every encoder row at once,
  `u = tanh(enc · W_enc + b_enc + d_proj) · v_w + v_b`, and returns `softmax(u)`.  The kernel program computes the
  same scores 2048 rows at a time (32 grid points of a first kernel), views the 65536 scores as 512 rows of 128
  lanes, and normalises them in a second kernel that takes the maximum and the sum along the lanes first and along
  the rows second.

  On the extended reals the two agree entry by entry: a matrix product into a zero accumulator is the reference's
  contraction, a change of float format is the identity, each row tile's scores are the restriction of one score
  column, and a maximum or a sum taken lanes-then-rows is the maximum or sum over all positions (commutativity and
  associativity only: no entry has to be finite, so the precondition is never opened).

  The modules: `AttnSpec` states the score of a row and the softmax (flat and tiled); `TiledLaw` proves the tiled
  softmax equal to the flat one; `KScore` and `KSoftmax` read the two kernel bodies' stored values at an index;
  `KBlocks0` and `KBlocks1` assemble each kernel's blocks into its output array; `KRun` is the kernel program's
  run with its final memory named; `KValue` reads the result buffer back to the arguments; `RefScore` and
  `RefSoftmax` read the reference's run at an index.  Here the claims are assembled.
-/
import proofs.«135827_j28578712388353_2_alg».proof.Defs
import proofs.«135827_j28578712388353_2_alg».proof.Proof.Gen.Kernel
import proofs.«135827_j28578712388353_2_alg».proof.Proof.Gen.Kernel.Skeleton
import proofs.«135827_j28578712388353_2_alg».proof.Proof.Gen.Kernel.Launch
import proofs.«135827_j28578712388353_2_alg».proof.Proof.Gen.Kernel.Points
import proofs.«135827_j28578712388353_2_alg».proof.Proof.Gen.Kernel.Frame
import proofs.«135827_j28578712388353_2_alg».proof.Proof.Gen.KernelIdeal
import proofs.«135827_j28578712388353_2_alg».proof.Proof.Gen.KernelIdeal.Skeleton
import proofs.«135827_j28578712388353_2_alg».proof.Proof.Gen.KernelIdeal.Launch
import proofs.«135827_j28578712388353_2_alg».proof.Proof.Gen.KernelIdeal.Points
import proofs.«135827_j28578712388353_2_alg».proof.Proof.Gen.KernelIdeal.Frame
import proofs.«135827_j28578712388353_2_alg».proof.Proof.Gen.ReferenceIdeal
import proofs.«135827_j28578712388353_2_alg».proof.Proof.Gen.ReferenceIdeal.Run
import proofs.«135827_j28578712388353_2_alg».proof.Proof.Gen.ReferenceIdeal.Read
import proofs.«135827_j28578712388353_2_alg».proof.Proof.Gen.Pre_finite_inputs
import proofs.«135827_j28578712388353_2_alg».proof.Proof.KValue
import proofs.«135827_j28578712388353_2_alg».proof.Proof.RefSoftmax
import Idealize.ShloMosaic.Adequacy
import Idealize.ShloMosaic.Init

set_option maxRecDepth 16384

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- From memories that agree on the arguments both programs end with entry `r` of the result at the flat softmax,
    at `r`, of the 65536 row scores of the arguments. -/
theorem algebraic : Cert.algebraic_KernelIdeal_ReferenceIdeal := by
  intro m ρ m' ρ' _ hagree
  refine ⟨fun c => fun i => Cert.Attention.softmaxFlat (Cert.KernelSide.scoreOf m c) (⟨(i 0).val, (i 0).isLt⟩ : Fin 65536), ?_, ?_⟩
  · -- the kernel program: the result buffer read back through the fold
    refine (θ_run Cert.KernelIdeal.defs _ _).mono (fun r h c => ⟨(h c).1.trans ?_, (h c).2⟩) (Cert.KernelSide.run_result m ρ)
    funext i
    obtain ⟨q, rfl⟩ : ∃ q : Fin 65536, i = ValueIdx.ix1 q := ⟨i 0, ValueIdx.eq_ix1 i⟩
    exact Cert.KernelSide.result_value m ρ c q
  · -- the reference: its run's term read at an index, at the kernel's arguments
    refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v59_eq, e0, e1, e2, e3, e4, e5, e6, e7, e8, e9, e10, e11, e12]
    funext i
    obtain ⟨q, rfl⟩ : ∃ q : Fin 65536, i = ValueIdx.ix1 q := ⟨i 0, ValueIdx.eq_ix1 i⟩
    exact Cert.RefSide.result_at _ _ _ _ _ _ _ _ _ _ _ _ _ q

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
